-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1000000x32 : Shape := ⟨2, ![1000000, 32]⟩
abbrev S2x4000000 : Shape := ⟨2, ![2, 4000000]⟩
abbrev S161x15 : Shape := ⟨2, ![161, 15]⟩
abbrev S15 : Shape := ⟨1, ![15]⟩
abbrev S15x32 : Shape := ⟨2, ![15, 32]⟩
abbrev S32 : Shape := ⟨1, ![32]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S161x15 : S_.BroadcastsInDim S161x15 (![] : Fin 0 → Fin S161x15.rank)
  reducesTo_S161x15_S_d0_1 : S161x15.ReducesTo [0, 1] S_
  bcast_S_S15 : S_.BroadcastsInDim S15 (![] : Fin 0 → Fin S15.rank)
  reducesTo_S15_S_d0 : S15.ReducesTo [0] S_
  bcast_S_S15x32 : S_.BroadcastsInDim S15x32 (![] : Fin 0 → Fin S15x32.rank)
  reducesTo_S15x32_S_d0_1 : S15x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S15x32 .f32) (main_arg6 : FVec F S32 .f32) (main_v13 : IVec S_ 1) (main_v16 : IVec S15 1) : IVec S_ 1 :=
  let main_c_5 : IVec S_ 1 := constantI S_ 1 1#1
  let main_v17 : IVec S_ 1 := (fun x v => Host.reduce IntOp.andi x v reducesTo_S15_S_d0 h_S_) main_v16 main_c_5
  let main_v18 : IVec S_ 1 := andi main_v13 main_v17
  let main_v19 : FVec F S15x32 .f32 := Host.absf main_arg5
  let main_cst_6 : FVec F S_ .f32 := constant S_ .f32 0x7F800000#32
  let main_v20 : FVec F S15x32 .f32 := broadcastInDim S15x32 ![] bcast_S_S15x32 main_cst_6
  let main_v21 : IVec S15x32 1 := cmpf .olt main_v19 main_v20
  let main_c_7 : IVec S_ 1 := constantI S_ 1 1#1
  let main_v22 : IVec S_ 1 := (fun x v => Host.reduce IntOp.andi x v reducesTo_S15x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S1 .f32) (main_arg1 : FVec F S1000000x32 .f32) (main_arg2 : IVec S2x4000000 32) (main_arg3 : FVec F S161x15 .f32) (main_arg4 : FVec F S15 .f32) (main_arg5 : FVec F S15x32 .f32) (main_arg6 : FVec F S32 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S1000000x32 .f32 := Host.absf main_arg1
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S161x15 .f32 := Host.absf main_arg3
  let main_cst_2 : FVec F S_ .f32 := constant S_ .f32 0x7F800000#32
  let main_v10 : FVec F S161x15 .f32 := broadcastInDim S161x15 ![] bcast_S_S161x15 main_cst_2
  let main_v11 : IVec S161x15 1 := cmpf .olt main_v9 main_v10
  let main_c_3 : IVec S_ 1 := constantI S_ 1 1#1
  let main_v12 : IVec S_ 1 := (fun x v => Host.reduce IntOp.andi x v reducesTo_S161x15_S_d0_1 h_S_) main_v11 main_c_3
  let main_v13 : IVec S_ 1 := andi main_v8 main_v12
  let main_v14 : FVec F S15 .f32 := Host.absf main_arg4
  let main_cst_4 : FVec F S_ .f32 := constant S_ .f32 0x7F800000#32
  let main_v15 : FVec F S15 .f32 := broadcastInDim S15 ![] bcast_S_S15 main_cst_4
  let main_v16 : IVec S15 1 := cmpf .olt main_v14 main_v15
  fn_part1 (F := F) main_arg5 main_arg6 main_v13 main_v16
-- ==== Kernel.lean ====
abbrev S1 : Shape := ⟨1, ![1]⟩
abbrev S1000000x32 : Shape := ⟨2, ![1000000, 32]⟩
abbrev S2x4000000 : Shape := ⟨2, ![2, 4000000]⟩
abbrev S161x15 : Shape := ⟨2, ![161, 15]⟩
abbrev S15 : Shape := ⟨1, ![15]⟩
abbrev S15x32 : Shape := ⟨2, ![15, 32]⟩
abbrev S32 : Shape := ⟨1, ![32]⟩
abbrev S1x4000000 : Shape := ⟨2, ![1, 4000000]⟩
abbrev S4000000 : Shape := ⟨1, ![4000000]⟩
abbrev S1000000x4 : Shape := ⟨2, ![1000000, 4]⟩
abbrev S_ : Shape := ⟨0, ![]⟩
abbrev S1000000x4x1 : Shape := ⟨3, ![1000000, 4, 1]⟩
abbrev S1000000x4x32 : Shape := ⟨3, ![1000000, 4, 32]⟩
abbrev S1000000x128 : Shape := ⟨2, ![1000000, 128]⟩
abbrev S1000000x160 : Shape := ⟨2, ![1000000, 160]⟩
abbrev S1x1 : Shape := ⟨2, ![1, 1]⟩
abbrev S1000000x1 : Shape := ⟨2, ![1000000, 1]⟩
abbrev S1000000x161 : Shape := ⟨2, ![1000000, 161]⟩
abbrev S8000x161 : Shape := ⟨2, ![8000, 161]⟩
abbrev S8000x32 : Shape := ⟨2, ![8000, 32]⟩
abbrev S8000x15 : Shape := ⟨2, ![8000, 15]⟩
abbrev S1x15 : Shape := ⟨2, ![1, 15]⟩
abbrev S1x32 : Shape := ⟨2, ![1, 32]⟩

abbrev nBuf : Space → Nat
  | .hbm => 26
  | .vmem => 8
  | .smem => 0
  | _ => 0

abbrev bufTy : (tb : Table) → Fin (tcTables nBuf tb) → BufTy
  | .hbm, ⟨0, _⟩ => ⟨S1, .f32⟩
  | .hbm, ⟨1, _⟩ => ⟨S1000000x32, .f32⟩
  | .hbm, ⟨2, _⟩ => ⟨S2x4000000, .i32⟩
  | .hbm, ⟨3, _⟩ => ⟨S161x15, .f32⟩
  | .hbm, ⟨4, _⟩ => ⟨S15, .f32⟩
  | .hbm, ⟨5, _⟩ => ⟨S15x32, .f32⟩
  | .hbm, ⟨6, _⟩ => ⟨S32, .f32⟩
  | .hbm, ⟨7, _⟩ => ⟨S1x4000000, .i32⟩
  | .hbm, ⟨8, _⟩ => ⟨S4000000, .i32⟩
  | .hbm, ⟨9, _⟩ => ⟨S1000000x4, .i32⟩
  | .hbm, ⟨10, _⟩ => ⟨S1000000x4, .i32⟩
  | .hbm, ⟨11, _⟩ => ⟨S_, .i32⟩
  | .hbm, ⟨12, _⟩ => ⟨S1000000x4, .i32⟩
  | .hbm, ⟨13, _⟩ => ⟨S1000000x4, .i1⟩
  | .hbm, ⟨14, _⟩ => ⟨S_, .i32⟩
  | .hbm, ⟨15, _⟩ => ⟨S1000000x4, .i32⟩
  | .hbm, ⟨16, _⟩ => ⟨S1000000x4, .i32⟩
  | .hbm, ⟨17, _⟩ => ⟨S1000000x4, .i32⟩
  | .hbm, ⟨18, _⟩ => ⟨S1000000x4x1, .i32⟩
  | .hbm, ⟨19, _⟩ => ⟨S1000000x4x32, .f32⟩
  | .hbm, ⟨20, _⟩ => ⟨S1000000x128, .f32⟩
  | .hbm, ⟨21, _⟩ => ⟨S1000000x160, .f32⟩
  | .hbm, ⟨22, _⟩ => ⟨S1x1, .f32⟩
  | .hbm, ⟨23, _⟩ => ⟨S1000000x1, .f32⟩
  | .hbm, ⟨24, _⟩ => ⟨S1000000x161, .f32⟩
  | .hbm, ⟨25, _⟩ => ⟨S1000000x32, .f32⟩
  | .local _ .vmem, ⟨0, _⟩ => ⟨S8000x161, .f32⟩
  | .local _ .vmem, ⟨1, _⟩ => ⟨S8000x161, .f32⟩
  | .local _ .vmem, ⟨2, _⟩ => ⟨S161x15, .f32⟩
  | .local _ .vmem, ⟨3, _⟩ => ⟨S15, .f32⟩
  | .local _ .vmem, ⟨4, _⟩ => ⟨S15x32, .f32⟩
  | .local _ .vmem, ⟨5, _⟩ => ⟨S32, .f32⟩
  | .local _ .vmem, ⟨6, _⟩ => ⟨S8000x32, .f32⟩
  | .local _ .vmem, ⟨7, _⟩ => ⟨S8000x32, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x161 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S161x15 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x4000000_S1x4000000_1_0 : S2x4000000.Slices ![1, 0] S1x4000000
  shapeCasts_S1x4000000_S4000000 : S1x4000000.ShapeCasts S4000000
  shapeCasts_S4000000_S1000000x4 : S4000000.ShapeCasts S1000000x4
  bcast_S_S1000000x4 : S_.BroadcastsInDim S1000000x4 (![] : Fin 0 → Fin S1000000x4.rank)
  bcast_S1000000x4_S1000000x4x1_0_1 : S1000000x4.BroadcastsInDim S1000000x4x1 (![0, 1] : Fin 2 → Fin S1000000x4x1.rank)
  shapeCasts_S1000000x4x32_S1000000x128 : S1000000x4x32.ShapeCasts S1000000x128
  concatenates_S1000000x32_S1000000x128_S1000000x160_d1 : Shape.Concatenates [S1000000x32, S1000000x128] S1000000x160 1
  shapeCasts_S1_S1x1 : S1.ShapeCasts S1x1
  bcast_S1x1_S1000000x1_0_1 : S1x1.BroadcastsInDim S1000000x1 (![0, 1] : Fin 2 → Fin S1000000x1.rank)
  concatenates_S1000000x1_S1000000x160_S1000000x161_d1 : Shape.Concatenates [S1000000x1, S1000000x160] S1000000x161 1
  inb_S8000x161_S8000x161_0_0 : ∀ a, (![0, 0] : Fin 2 → Nat) a + S8000x161.size a ≤ S8000x161.size a
  h_S8000x161 : 0 < S8000x161.numel
  shapeCasts_S8000x161_S8000x161 : S8000x161.ShapeCasts S8000x161
  bitsLt_bf16_f32 : FTy.bits .bf16 < FTy.bits .f32
  inb_S161x15_S161x15_0_0 : ∀ a, (![0, 0] : Fin 2 → Nat) a + S161x15.size a ≤ S161x15.size a
  h_S161x15 : 0 < S161x15.numel
  inb_S15_S15_0 : ∀ a, (![0] : Fin 1 → Nat) a + S15.size a ≤ S15.size a
  h_S15 : 0 < S15.numel
  shapeCasts_S15_S1x15 : S15.ShapeCasts S1x15
  broadcasts_S1x15_S8000x15 : S1x15.Broadcasts S8000x15
  inb_S15x32_S15x32_0_0 : ∀ a, (![0, 0] : Fin 2 → Nat) a + S15x32.size a ≤ S15x32.size a
  h_S15x32 : 0 < S15x32.numel
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  gather_S1000000x32_S1000000x4x1_S1000000x4x32_2_0_n_n_0_2_132_wf : GatherDims.WF S1000000x32 S1000000x4x1 S1000000x4x32 [2] [0] [] [0] [] 2 ![1, 32]
  dot_S8000x161_S161x15_S8000x15_1_0_0_1_n_n_wf : DotDims.WF S8000x161 S161x15 S8000x15 [1] [0] [0] [1] [] []
  dot_S8000x15_S15x32_S8000x32_1_0_0_1_n_n_wf : DotDims.WF S8000x15 S15x32 S8000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x161.size a ≤ S1000000x161.size a
  hwx0_0 : ∀ i : grid0.Coords, EltTy.bits .f32 = 32 ∨ (Rect.block (s := S1000000x161) S8000x161.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S161x15.size a ≤ S161x15.size a
  hwx0_1 : ∀ i : grid0.Coords, EltTy.bits .f32 = 32 ∨ (Rect.block (s := S161x15) S161x15.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15.size a ≤ S15.size a
  hwx0_2 : ∀ i : grid0.Coords, EltTy.bits .f32 = 32 ∨ (Rect.block (s := S15) S15.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x32.size a ≤ S15x32.size a
  hwx0_3 : ∀ i : grid0.Coords, EltTy.bits .f32 = 32 ∨ (Rect.block (s := S15x32) S15x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x32.size a ≤ S1000000x32.size a
  hwx0_5 : ∀ i : grid0.Coords, EltTy.bits .f32 = 32 ∨ (Rect.block (s := S1000000x32) S8000x32.size (cc0_transform_5 i) (hinb0_5 i)).WholeWords (EltTy.packing .f32)

variable [Facts₀]

def comparator_i32_d1 : BitVec 32 → BitVec 32 → BitVec 1 :=
  fun l r =>
    let v1 := IntOp.cmpi .slt l r
    v1
def gather_S1000000x32_S1000000x4x1_S1000000x4x32_2_0_n_n_0_2_132 : GatherDims S1000000x32 S1000000x4x1 S1000000x4x32 where
  offsetDims := [2]
  collapsedSliceDims := [0]
  operandBatchingDims := []
  startIndicesBatchingDims := []
  startIndexMap := [0]
  indexVectorDim := 2
  sliceSizes := ![1, 32]
  wf := gather_S1000000x32_S1000000x4x1_S1000000x4x32_2_0_n_n_0_2_132_wf
def dot_S8000x161_S161x15_S8000x15_1_0_0_1_n_n : DotDims S8000x161 S161x15 S8000x15 where
  lhsContracting := [1]
  rhsContracting := [0]
  lhsNonContracting := [0]
  rhsNonContracting := [1]
  lhsBatch := []
  rhsBatch := []
  wf := dot_S8000x161_S161x15_S8000x15_1_0_0_1_n_n_wf
def dot_S8000x15_S15x32_S8000x32_1_0_0_1_n_n : DotDims S8000x15 S15x32 S8000x32 where
  lhsContracting := [1]
  rhsContracting := [0]
  lhsNonContracting := [0]
  rhsNonContracting := [1]
  lhsBatch := []
  rhsBatch := []
  wf := dot_S8000x15_S15x32_S8000x32_1_0_0_1_n_n_wf

abbrev win0_0 : Pipeline.Window sig grid0 :=
  Pipeline.Window.ofSpec (Memref.whole main_v15) S8000x161.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S161x15.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S15.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S15x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S8000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1 : Shape := ⟨1, ![1]⟩
abbrev S1000000x32 : Shape := ⟨2, ![1000000, 32]⟩
abbrev S2x4000000 : Shape := ⟨2, ![2, 4000000]⟩
abbrev S161x15 : Shape := ⟨2, ![161, 15]⟩
abbrev S15 : Shape := ⟨1, ![15]⟩
abbrev S15x32 : Shape := ⟨2, ![15, 32]⟩
abbrev S32 : Shape := ⟨1, ![32]⟩
abbrev S1x4000000 : Shape := ⟨2, ![1, 4000000]⟩
abbrev S4000000 : Shape := ⟨1, ![4000000]⟩
abbrev S1000000x4 : Shape := ⟨2, ![1000000, 4]⟩
abbrev S_ : Shape := ⟨0, ![]⟩
abbrev S1000000x4x1 : Shape := ⟨3, ![1000000, 4, 1]⟩
abbrev S1000000x4x32 : Shape := ⟨3, ![1000000, 4, 32]⟩
abbrev S1000000x128 : Shape := ⟨2, ![1000000, 128]⟩
abbrev S1000000x160 : Shape := ⟨2, ![1000000, 160]⟩
abbrev S1x1 : Shape := ⟨2, ![1, 1]⟩
abbrev S1000000x1 : Shape := ⟨2, ![1000000, 1]⟩
abbrev S1000000x161 : Shape := ⟨2, ![1000000, 161]⟩
abbrev S1000000x15 : Shape := ⟨2, ![1000000, 15]⟩
abbrev S1x15 : Shape := ⟨2, ![1, 15]⟩
abbrev S1x32 : Shape := ⟨2, ![1, 32]⟩

abbrev nBuf : Space → Nat
  | .hbm => 34
  | .vmem => 0
  | .smem => 0
  | _ => 0

abbrev bufTy : (tb : Table) → Fin (tcTables nBuf tb) → BufTy
  | .hbm, ⟨0, _⟩ => ⟨S1, .f32⟩
  | .hbm, ⟨1, _⟩ => ⟨S1000000x32, .f32⟩
  | .hbm, ⟨2, _⟩ => ⟨S2x4000000, .i32⟩
  | .hbm, ⟨3, _⟩ => ⟨S161x15, .f32⟩
  | .hbm, ⟨4, _⟩ => ⟨S15, .f32⟩
  | .hbm, ⟨5, _⟩ => ⟨S15x32, .f32⟩
  | .hbm, ⟨6, _⟩ => ⟨S32, .f32⟩
  | .hbm, ⟨7, _⟩ => ⟨S1x4000000, .i32⟩
  | .hbm, ⟨8, _⟩ => ⟨S4000000, .i32⟩
  | .hbm, ⟨9, _⟩ => ⟨S1000000x4, .i32⟩
  | .hbm, ⟨10, _⟩ => ⟨S1000000x4, .i32⟩
  | .hbm, ⟨11, _⟩ => ⟨S_, .i32⟩
  | .hbm, ⟨12, _⟩ => ⟨S1000000x4, .i32⟩
  | .hbm, ⟨13, _⟩ => ⟨S1000000x4, .i1⟩
  | .hbm, ⟨14, _⟩ => ⟨S_, .i32⟩
  | .hbm, ⟨15, _⟩ => ⟨S1000000x4, .i32⟩
  | .hbm, ⟨16, _⟩ => ⟨S1000000x4, .i32⟩
  | .hbm, ⟨17, _⟩ => ⟨S1000000x4, .i32⟩
  | .hbm, ⟨18, _⟩ => ⟨S1000000x4x1, .i32⟩
  | .hbm, ⟨19, _⟩ => ⟨S1000000x4x32, .f32⟩
  | .hbm, ⟨20, _⟩ => ⟨S1000000x128, .f32⟩
  | .hbm, ⟨21, _⟩ => ⟨S1000000x160, .f32⟩
  | .hbm, ⟨22, _⟩ => ⟨S1x1, .f32⟩
  | .hbm, ⟨23, _⟩ => ⟨S1000000x1, .f32⟩
  | .hbm, ⟨24, _⟩ => ⟨S1000000x161, .f32⟩
  | .hbm, ⟨25, _⟩ => ⟨S1000000x15, .f32⟩
  | .hbm, ⟨26, _⟩ => ⟨S1x15, .f32⟩
  | .hbm, ⟨27, _⟩ => ⟨S1000000x15, .f32⟩
  | .hbm, ⟨28, _⟩ => ⟨S1000000x15, .f32⟩
  | .hbm, ⟨29, _⟩ => ⟨S1000000x15, .f32⟩
  | .hbm, ⟨30, _⟩ => ⟨S1000000x32, .f32⟩
  | .hbm, ⟨31, _⟩ => ⟨S1x32, .f32⟩
  | .hbm, ⟨32, _⟩ => ⟨S1000000x32, .f32⟩
  | .hbm, ⟨33, _⟩ => ⟨S1000000x32, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S2x4000000_S1x4000000_1_0 : S2x4000000.Slices ![1, 0] S1x4000000
  shapeCasts_S1x4000000_S4000000 : S1x4000000.ShapeCasts S4000000
  shapeCasts_S4000000_S1000000x4 : S4000000.ShapeCasts S1000000x4
  bcast_S_S1000000x4 : S_.BroadcastsInDim S1000000x4 (![] : Fin 0 → Fin S1000000x4.rank)
  bcast_S1000000x4_S1000000x4x1_0_1 : S1000000x4.BroadcastsInDim S1000000x4x1 (![0, 1] : Fin 2 → Fin S1000000x4x1.rank)
  shapeCasts_S1000000x4x32_S1000000x128 : S1000000x4x32.ShapeCasts S1000000x128
  concatenates_S1000000x32_S1000000x128_S1000000x160_d1 : Shape.Concatenates [S1000000x32, S1000000x128] S1000000x160 1
  shapeCasts_S1_S1x1 : S1.ShapeCasts S1x1
  bcast_S1x1_S1000000x1_0_1 : S1x1.BroadcastsInDim S1000000x1 (![0, 1] : Fin 2 → Fin S1000000x1.rank)
  concatenates_S1000000x1_S1000000x160_S1000000x161_d1 : Shape.Concatenates [S1000000x1, S1000000x160] S1000000x161 1
  bcast_S15_S1x15_1 : S15.BroadcastsInDim S1x15 (![1] : Fin 1 → Fin S1x15.rank)
  bcast_S1x15_S1000000x15_0_1 : S1x15.BroadcastsInDim S1000000x15 (![0, 1] : Fin 2 → Fin S1000000x15.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  gather_S1000000x32_S1000000x4x1_S1000000x4x32_2_0_n_n_0_2_132_wf : GatherDims.WF S1000000x32 S1000000x4x1 S1000000x4x32 [2] [0] [] [0] [] 2 ![1, 32]
  dot_S1000000x161_S161x15_S1000000x15_1_0_0_1_n_n_wf : DotDims.WF S1000000x161 S161x15 S1000000x15 [1] [0] [0] [1] [] []
  dot_S1000000x15_S15x32_S1000000x32_1_0_0_1_n_n_wf : DotDims.WF S1000000x15 S15x32 S1000000x32 [1] [0] [0] [1] [] []

variable [Facts₀]

def comparator_i32_d1 : BitVec 32 → BitVec 32 → BitVec 1 :=
  fun l r =>
    let v1 := IntOp.cmpi .slt l r
    v1
def gather_S1000000x32_S1000000x4x1_S1000000x4x32_2_0_n_n_0_2_132 : GatherDims S1000000x32 S1000000x4x1 S1000000x4x32 where
  offsetDims := [2]
  collapsedSliceDims := [0]
  operandBatchingDims := []
  startIndicesBatchingDims := []
  startIndexMap := [0]
  indexVectorDim := 2
  sliceSizes := ![1, 32]
  wf := gather_S1000000x32_S1000000x4x1_S1000000x4x32_2_0_n_n_0_2_132_wf
def dot_S1000000x161_S161x15_S1000000x15_1_0_0_1_n_n : DotDims S1000000x161 S161x15 S1000000x15 where
  lhsContracting := [1]
  rhsContracting := [0]
  lhsNonContracting := [0]
  rhsNonContracting := [1]
  lhsBatch := []
  rhsBatch := []
  wf := dot_S1000000x161_S161x15_S1000000x15_1_0_0_1_n_n_wf
def dot_S1000000x15_S15x32_S1000000x32_1_0_0_1_n_n : DotDims S1000000x15 S15x32 S1000000x32 where
  lhsContracting := [1]
  rhsContracting := [0]
  lhsNonContracting := [0]
  rhsNonContracting := [1]
  lhsBatch := []
  rhsBatch := []
  wf := dot_S1000000x15_S15x32_S1000000x32_1_0_0_1_n_n_wf

class Facts : Prop extends Facts₀ where

variable [Facts]
-- ==== Proof.MlpSpec.lean ====
/-
  A two-layer perceptron on the extended reals, entry by entry.

  For a matrix X of M rows of 161 features, weights W1 (161×15) and W2 (15×32) and bias rows b1 (15 entries) and
  b2 (32 entries):
      hidden X W1 b1 r k        = tanh (Σ_j X(r, j) · W1(j, k) + b1(k))
      mlp X W1 b1 W2 b2 (r, c)  = Σ_k hidden X W1 b1 r k · W2(k, c) + b2(c).
  Row r of the result is a function of row r of X alone (`mlp_row_congr`): this is why the result may be computed
  one block of rows at a time, each block from the same rows of X, and still be one function of the whole of X.
  No law here needs a finite entry: the sums are the extended reals' own, in one fixed order of summation on
  both sides.
-/
import Idealize.ShloMosaic.PureOps.Ideal
import Idealize.ShloMosaic.Lib.ValueIdx

noncomputable section

namespace Cert.Mlp

open Idealize.ShloMosaic Idealize.ShloMosaic.ValueIdx

variable {M M' : Nat}

/-- The hidden layer at row `r`, unit `k`: the hyperbolic tangent of the row's inner product with column `k` of
    `W1`, shifted by the bias. -/
def hidden (X : (⟨2, ![M, 161]⟩ : Shape).Idx → EReal) (W1 : (⟨2, ![161, 15]⟩ : Shape).Idx → EReal)
    (b1 : (⟨1, ![15]⟩ : Shape).Idx → EReal) (r : Fin M) (k : Fin 15) : EReal :=
  Ideal.tanh ((∑ j : Fin 161, X (ix2 r j) * W1 (ix2 j k)) + b1 (ix1 k))

/-- The output layer: entry (r, c) is the inner product of row `r` of the hidden layer with column `c` of `W2`,
    shifted by the bias. -/
def mlp (X : (⟨2, ![M, 161]⟩ : Shape).Idx → EReal) (W1 : (⟨2, ![161, 15]⟩ : Shape).Idx → EReal)
    (b1 : (⟨1, ![15]⟩ : Shape).Idx → EReal) (W2 : (⟨2, ![15, 32]⟩ : Shape).Idx → EReal)
    (b2 : (⟨1, ![32]⟩ : Shape).Idx → EReal) : (⟨2, ![M, 32]⟩ : Shape).Idx → EReal :=
  fun i => (∑ k : Fin 15, hidden X W1 b1 (i 0) k * W2 (ix2 k (i 1))) + b2 (ix1 (i 1))

theorem mlp_apply (X : (⟨2, ![M, 161]⟩ : Shape).Idx → EReal) (W1 : (⟨2, ![161, 15]⟩ : Shape).Idx → EReal)
    (b1 : (⟨1, ![15]⟩ : Shape).Idx → EReal) (W2 : (⟨2, ![15, 32]⟩ : Shape).Idx → EReal)
    (b2 : (⟨1, ![32]⟩ : Shape).Idx → EReal) (r : Fin M) (c : Fin 32) :
    mlp X W1 b1 W2 b2 (ix2 r c) = (∑ k : Fin 15, hidden X W1 b1 r k * W2 (ix2 k c)) + b2 (ix1 c) := rfl

/-- Row `r` of the result is a function of row `r` of the features alone: two feature matrices, of whatever
    numbers of rows, that agree on a row of each give the same result row there. -/
theorem mlp_row_congr (X : (⟨2, ![M, 161]⟩ : Shape).Idx → EReal) (X' : (⟨2, ![M', 161]⟩ : Shape).Idx → EReal)
    (W1 : (⟨2, ![161, 15]⟩ : Shape).Idx → EReal) (b1 : (⟨1, ![15]⟩ : Shape).Idx → EReal)
    (W2 : (⟨2, ![15, 32]⟩ : Shape).Idx → EReal) (b2 : (⟨1, ![32]⟩ : Shape).Idx → EReal)
    (r : Fin M) (r' : Fin M') (c : Fin 32) (h : ∀ j : Fin 161, X (ix2 r j) = X' (ix2 r' j)) :
    mlp X W1 b1 W2 b2 (ix2 r c) = mlp X' W1 b1 W2 b2 (ix2 r' c) := by
  rw [mlp_apply, mlp_apply]
  have hh : ∀ k : Fin 15, hidden X W1 b1 r k = hidden X' W1 b1 r' k := fun k => by
    unfold hidden
    exact congrArg (fun s => Ideal.tanh (s + b1 (ix1 k))) (Finset.sum_congr rfl fun j _ => by rw [h j])
  exact congrArg (· + b2 (ix1 c)) (Finset.sum_congr rfl fun k _ => by rw [hh k])

end Cert.Mlp

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.KernelBlock.lean ====
/-
  What the kernel body computes on one block of rows.

  The body loads a block of 8000 rows of the features, the two weight matrices and the two bias rows whole, and
  stores, for every row p of the block and column q, the perceptron's entry (p, q) of that block: each of its two
  matrix products is a product into the zero accumulator, hence the plain sum over the contracted axis; each
  bias row, cast to one row and repeated down the block, reads at (p, k) as the bias's entry k; a change of
  float format is the identity on the extended reals, and so is a cast to the same shape.
-/
import proofs.«145958_j22471268892730_2_alg».proof.Proof.Gen.KernelIdeal.Skeleton
import proofs.«145958_j22471268892730_2_alg».proof.Proof.MlpSpec
import proofs.«145958_j22471268892730_2_alg».proof.Proof.LibPlainDot
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx Cert.Mlp

/-- The first layer before the activation, at row `p` and unit `k` of the block. -/
theorem preact_apply (x0 : Vec Ideal S8000x161 .f32) (x1 : Vec Ideal S161x15 .f32) (x2 : Vec Ideal S15 .f32)
    (p : Fin 8000) (k : Fin 15) :
    addf (matmul dot_S8000x161_S161x15_S8000x15_1_0_0_1_n_n none
        (truncf .bf16 (shapeCast S8000x161 x0 shapeCasts_S8000x161_S8000x161) bitsLt_bf16_f32)
        (truncf .bf16 x1 bitsLt_bf16_f32) (constant (F := Ideal) S8000x15 .f32 0x00000000#32))
      (broadcastTo S8000x15 (shapeCast S1x15 x2 shapeCasts_S15_S1x15) broadcasts_S1x15_S8000x15) (ix2 p k)
    = (∑ j : Fin 161, x0 (ix2 p j) * x1 (ix2 j k)) + x2 (ix1 k) := by
  refine (addf_apply _ _ _).trans ?_
  refine congrArg₂ (· + ·) ?_ ?_
  · refine (PlainDot.matmul_zero_apply dot_S8000x161_S161x15_S8000x15_1_0_0_1_n_n rfl none _ _ (ix2 p k)).trans ?_
    rw [shapeCast_self]
    rfl
  · refine (broadcastTo_1b_ab_apply _ broadcasts_S1x15_S8000x15 p k).trans ?_
    exact shapeCast_a_1a_apply x2 shapeCasts_S15_S1x15 0 k

/-- The body's stored value at row `p`, column `q` of the block is the perceptron's entry there, of the block of
    features and the weights and biases the body loaded. -/
theorem pay_apply (x0 : Vec Ideal S8000x161 .f32) (x1 : Vec Ideal S161x15 .f32) (x2 : Vec Ideal S15 .f32)
    (x3 : Vec Ideal S15x32 .f32) (x4 : Vec Ideal S32 .f32) (p : Fin 8000) (q : Fin 32) :
    k0_pay1 (F := Ideal) x0 x1 x2 x3 x4 (ix2 p q) = mlp x0 x1 x2 x3 x4 (ix2 p q) := by
  rw [mlp_apply]
  unfold k0_pay1
  refine (addf_apply _ _ _).trans ?_
  refine congrArg₂ (· + ·) ?_ ?_
  · refine (PlainDot.matmul_zero_apply dot_S8000x15_S15x32_S8000x32_1_0_0_1_n_n rfl none _ _ (ix2 p q)).trans ?_
    refine Finset.sum_congr rfl fun k _ => ?_
    refine congrArg₂ (· * ·) ?_ rfl
    unfold Cert.Mlp.hidden
    exact congrArg Ideal.tanh (preact_apply x0 x1 x2 p k)
  · refine (broadcastTo_1b_ab_apply _ broadcasts_S1x32_S8000x32 p q).trans ?_
    exact shapeCast_a_1a_apply x4 shapeCasts_S32_S1x32 0 q

/-- The same as an equation of functions on the block. -/
theorem pay_eq (x0 : Vec Ideal S8000x161 .f32) (x1 : Vec Ideal S161x15 .f32) (x2 : Vec Ideal S15 .f32)
    (x3 : Vec Ideal S15x32 .f32) (x4 : Vec Ideal S32 .f32) :
    k0_pay1 (F := Ideal) x0 x1 x2 x3 x4 = mlp x0 x1 x2 x3 x4 :=
  funext fun y => by rw [eq_ix2 y]; exact pay_apply x0 x1 x2 x3 x4 (y 0) (y 1)

end Cert.KernelIdeal.Block

end
-- ==== Proof.HostPrefix.lean ====
/-
  The features array as the kernel's launch finds it.

  Before the launch the host sorts each node's four neighbour ids, gathers the neighbours' feature rows, and joins
  the time, the node's own features and the gathered ones into one row of 161 features per node. The reference
  program does the same with the same operations on the same arguments, so the array the launch reads is the
  reference's features stage of the launch contents of the first three arguments. The chain of operations is never
  opened: it is one function of those three arrays on both sides.
-/
import proofs.«145958_j22471268892730_2_alg».proof.Proof.Gen.KernelIdeal.Frame
import proofs.«145958_j22471268892730_2_alg».proof.Proof.Gen.ReferenceIdeal.Read
import Idealize.ShloMosaic.Lib.StableHlo.Run

set_option maxRecDepth 16384

noncomputable section

namespace Cert.KernelIdeal.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The launch's first operand is the reference's features stage of the first three arguments as launched. -/
theorem features_eq (c : Dev nD) :
    (V m c main_v15 : S1000000x161.Idx → EReal)
      = Cert.ReferenceIdeal.Read.val_main_v15 (F := Ideal) (m ((c : Thread nD τ).loc main_arg0))
          (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results
  rfl

end Cert.KernelIdeal.HostPrefix

end
-- ==== Proof.KernelWhole.lean ====
/-
  From the blocks to the whole result array.

  The launch runs over 125 points. Point t reads rows 8000·t … 8000·t + 7999 of the features and the weights and
  biases whole, and writes back rows 8000·t … 8000·t + 7999 of the result. What it writes back is the perceptron of
  its block of features; since a result row depends on the same features row alone, that is the same rows of the
  perceptron of the WHOLE features array. The 125 blocks of rows cover the array (row i lies in block i / 8000), so
  after the run the result array is the perceptron of the features array the launch found, which the host lines
  before it built exactly as the reference builds its own.
-/
import proofs.«145958_j22471268892730_2_alg».proof.Proof.Gen.KernelIdeal.Value
import proofs.«145958_j22471268892730_2_alg».proof.Proof.KernelBlock
import proofs.«145958_j22471268892730_2_alg».proof.Proof.HostPrefix

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 125 points: the features and the result move down the rows with the
    point, one block per point, and every other operand stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem point_lt (t : Fin cfg0.N) : t.val < 125 := lt_of_lt_of_eq t.isLt N_0

/-- The first weight matrix's block at any point is the whole matrix. -/
theorem iblk1 (c : Dev nD) (t : Fin cfg0.N) : (iblk m c 1 t : S161x15.Idx → EReal) = V m c main_arg3 := by
  obtain ⟨-, -, e0, e1, -⟩ := idx_facts t
  funext y
  show V m c main_arg3 (((cfg0.win 1).blk t).view.emb y) = V m c main_arg3 y
  refine congrArg _ (funext fun a => Fin.ext ?_)
  match a with
  | ⟨0, _⟩ => show win0_1.index t (0 : Fin 2) * 161 + 1 * (y 0).val = (y 0).val; omega
  | ⟨1, _⟩ => show win0_1.index t (1 : Fin 2) * 15 + 1 * (y 1).val = (y 1).val; omega

/-- The first bias row's block at any point is the whole row. -/
theorem iblk2 (c : Dev nD) (t : Fin cfg0.N) : (iblk m c 2 t : S15.Idx → EReal) = V m c main_arg4 := by
  obtain ⟨-, -, -, -, e0, -⟩ := idx_facts t
  funext y
  show V m c main_arg4 (((cfg0.win 2).blk t).view.emb y) = V m c main_arg4 y
  refine congrArg _ (funext fun a => Fin.ext ?_)
  match a with
  | ⟨0, _⟩ => show win0_2.index t (0 : Fin 1) * 15 + 1 * (y 0).val = (y 0).val; omega

/-- The second weight matrix's block at any point is the whole matrix. -/
theorem iblk3 (c : Dev nD) (t : Fin cfg0.N) : (iblk m c 3 t : S15x32.Idx → EReal) = V m c main_arg5 := by
  obtain ⟨-, -, -, -, -, e0, e1, -⟩ := idx_facts t
  funext y
  show V m c main_arg5 (((cfg0.win 3).blk t).view.emb y) = V m c main_arg5 y
  refine congrArg _ (funext fun a => Fin.ext ?_)
  match a with
  | ⟨0, _⟩ => show win0_3.index t (0 : Fin 2) * 15 + 1 * (y 0).val = (y 0).val; omega
  | ⟨1, _⟩ => show win0_3.index t (1 : Fin 2) * 32 + 1 * (y 1).val = (y 1).val; omega

/-- The second bias row's block at any point is the whole row. -/
theorem iblk4 (c : Dev nD) (t : Fin cfg0.N) : (iblk m c 4 t : S32.Idx → EReal) = V m c main_arg6 := by
  obtain ⟨-, -, -, -, -, -, -, e0, -⟩ := idx_facts t
  funext y
  show V m c main_arg6 (((cfg0.win 4).blk t).view.emb y) = V m c main_arg6 y
  refine congrArg _ (funext fun a => Fin.ext ?_)
  match a with
  | ⟨0, _⟩ => show win0_4.index t (0 : Fin 1) * 32 + 1 * (y 0).val = (y 0).val; omega

/-- Row `p` of the features block at point `t` is row 8000·t + p of the features array. -/
theorem iblk0_row (c : Dev nD) (t : Fin cfg0.N) (p : Fin 8000) (r : Fin 1000000) (hr : r.val = t.val * 8000 + p.val)
    (j : Fin 161) :
    (iblk m c 0 t : S8000x161.Idx → EReal) (ix2 p j) = (V m c main_v15 : S1000000x161.Idx → EReal) (ix2 r j) := by
  obtain ⟨e0, e1, -⟩ := idx_facts t
  show V m c main_v15 (((cfg0.win 0).blk t).view.emb (ix2 p j)) = V m c main_v15 (ix2 r j)
  refine congrArg _ (funext fun a => Fin.ext ?_)
  match a with
  | ⟨0, _⟩ => show win0_0.index t (0 : Fin 2) * 8000 + 1 * p.val = r.val; omega
  | ⟨1, _⟩ => show win0_0.index t (1 : Fin 2) * 161 + 1 * j.val = j.val; omega

/-- What point `t` writes back is rows 8000·t … 8000·t + 7999 of the perceptron of the arrays as the launch finds them. -/
theorem flushed_eq (c : Dev nD) (t : Fin cfg0.N) :
    (dats m 0 c).flushed 5 t = ((cfg0.win 5).blk t).view.read (Elt Ideal)
      (mlp (M := 1000000) (V m c main_v15) (V m c main_arg3) (V m c main_arg4) (V m c main_arg5) (V m c main_arg6)) := by
  rw [Value.flushed5]
  unfold out0_5
  rw [View.canon_unit_zero hz2]
  simp only [View.ld_unit_zero (S := S8000x161) hz2, View.ld_unit_zero (S := S161x15) hz2, View.ld_unit_zero (S := S15) hz1,
    View.ld_unit_zero (S := S15x32) hz2, View.ld_unit_zero (S := S32) hz1]
  rw [Block.pay_eq, iblk1, iblk2, iblk3, iblk4]
  obtain ⟨-, -, -, -, -, -, -, -, e0, e1⟩ := idx_facts t
  have ht := point_lt t
  funext y
  obtain ⟨p, q, rfl⟩ : ∃ (p : Fin 8000) (q : Fin 32), y = ix2 p q := ⟨y 0, y 1, eq_ix2 y⟩
  have hemb : ((cfg0.win 5).blk t).view.emb (ix2 p q)
      = (ix2 (⟨t.val * 8000 + p.val, by have := p.isLt; omega⟩ : Fin 1000000) q : S1000000x32.Idx) := by
    funext a; apply Fin.ext
    match a with
    | ⟨0, _⟩ => show win0_5.index t (0 : Fin 2) * 8000 + 1 * p.val = t.val * 8000 + p.val; omega
    | ⟨1, _⟩ => show win0_5.index t (1 : Fin 2) * 32 + 1 * q.val = q.val; omega
  show mlp (M := 8000) (iblk m c 0 t) (V m c main_arg3) (V m c main_arg4) (V m c main_arg5) (V m c main_arg6) (ix2 p q)
    = mlp (M := 1000000) (V m c main_v15) (V m c main_arg3) (V m c main_arg4) (V m c main_arg5) (V m c main_arg6)
        (((cfg0.win 5).blk t).view.emb (ix2 p q))
  rw [hemb]
  exact mlp_row_congr (iblk m c 0 t) (V m c main_v15) _ _ _ _ p _ q (fun j => iblk0_row m c t p _ rfl j)

/-- An index of the result array is in point `t`'s block iff each coordinate is in the block's range on its axis. -/
theorem mem_blk (t : Fin cfg0.N) (i : S1000000x32.Idx) :
    i ∈ ((cfg0.win 5).blk t).view.set ↔ ∀ a : Fin 2, win0_5.index t a * S8000x32.size a ≤ (i a).val
      ∧ (i a).val < win0_5.index t a * S8000x32.size a + S8000x32.size a := by
  show i ∈ ((View.whole main_v16).slice (win0_5.rect t)).set ↔ _
  rw [View.set_slice_whole, Rect.mem_set_unit]
  exact Iff.rfl

/-- Every index of the result array is in some point's block: row `i` lies in the block of point `i / 8000`. -/
theorem cover (i : S1000000x32.Idx) :
    ∃ t : Fin cfg0.N, (cfg0.win 5).flush t = true ∧ i ∈ ((cfg0.win 5).blk t).view.set := by
  have hi0 : (i 0).val < 1000000 := (i 0).isLt
  have hi1 : (i 1).val < 32 := (i 1).isLt
  have hN : cfg0.N = 125 := N_0
  have hlt : (i 0).val / 8000 < cfg0.N := by omega
  obtain ⟨-, -, -, -, -, -, -, -, e0, e1⟩ := idx_facts ⟨(i 0).val / 8000, hlt⟩
  refine ⟨⟨(i 0).val / 8000, hlt⟩, flush0_5 _, ?_⟩
  rw [mem_blk]
  intro a
  match a with
  | ⟨0, _⟩ =>
    show win0_5.index ⟨(i 0).val / 8000, hlt⟩ (0 : Fin 2) * 8000 ≤ (i 0).val
      ∧ (i 0).val < win0_5.index ⟨(i 0).val / 8000, hlt⟩ (0 : Fin 2) * 8000 + 8000
    have e0' : win0_5.index ⟨(i 0).val / 8000, hlt⟩ (0 : Fin 2) = (i 0).val / 8000 := e0
    omega
  | ⟨1, _⟩ =>
    show win0_5.index ⟨(i 0).val / 8000, hlt⟩ (1 : Fin 2) * 32 ≤ (i 1).val
      ∧ (i 1).val < win0_5.index ⟨(i 0).val / 8000, hlt⟩ (1 : Fin 2) * 32 + 32
    omega

/-- The result array after the run is the perceptron of the reference's features stage of the first three arguments
    as launched, with the weights and biases as launched. -/
theorem final (c : Dev nD) :
    (dats m 0 c).arrAt 5 cfg0.N = mlp (M := 1000000)
      (Cert.ReferenceIdeal.Read.val_main_v15 (F := Ideal) (m ((c : Thread nD τ).loc main_arg0))
        (m ((c : Thread nD τ).loc main_arg1)) (m ((c : Thread nD τ).loc main_arg2)))
      (m ((c : Thread nD τ).loc main_arg3)) (m ((c : Thread nD τ).loc main_arg4))
      (m ((c : Thread nD τ).loc main_arg5)) (m ((c : Thread nD τ).loc main_arg6)) := by
  have h := (dats m 0 c).arrAt_eq_of_cover 5
    (mlp (M := 1000000) (V m c main_v15) (V m c main_arg3) (V m c main_arg4) (V m c main_arg5) (V m c main_arg6))
    (fun t _ => flushed_eq m c t) cover
  rw [HostPrefix.features_eq m c, V_main_arg3 m c, V_main_arg4 m c, V_main_arg5 m c, V_main_arg6 m c] at h
  exact h

/-- The kernel's run with its result named: every weakly fair execution terminates with the result array at the
    perceptron above and the arguments unchanged. -/
theorem run : θ_run defs (onTc (τ := τ) (main (F := Ideal))) ⟨m, fun _ => 0, ρ⟩ fun r => ∀ c : Dev nD,
      r.2.mem ((c : Thread nD τ).loc main_v16) = mlp (M := 1000000)
        (Cert.ReferenceIdeal.Read.val_main_v15 (F := Ideal) (m ((c : Thread nD τ).loc main_arg0))
          (m ((c : Thread nD τ).loc main_arg1)) (m ((c : Thread nD τ).loc main_arg2)))
        (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefMlp.lean ====
/-
  The reference computes the perceptron of its features stage.

  After the features are assembled the reference multiplies them by W1, adds b1 along the rows, applies the
  hyperbolic tangent, multiplies by W2 and adds b2 along the rows. Read at entry (r, c): each product is the sum
  over the contracted axis, each bias broadcast reads the bias at the column, and the host's hyperbolic tangent is
  the extended reals' own.
-/
import proofs.«145958_j22471268892730_2_alg».proof.Proof.Gen.ReferenceIdeal.Read
import proofs.«145958_j22471268892730_2_alg».proof.Proof.MlpSpec

noncomputable section

namespace Cert.ReferenceIdeal.RefMlp

open Cert.ReferenceIdeal Cert.ReferenceIdeal.Read Idealize.ShloMosaic Idealize.ShloMosaic.ValueIdx Cert.Mlp

theorem lidx16 (r : Fin 1000000) (k : Fin 15) (j : Fin 161) : lidx_main_v16 (ix2 r k) j = ix2 r j :=
  funext fun a => Fin.ext (by match a with | ⟨0, _⟩ => rfl | ⟨1, _⟩ => rfl)
theorem ridx16 (r : Fin 1000000) (k : Fin 15) (j : Fin 161) : ridx_main_v16 (ix2 r k) j = ix2 j k :=
  funext fun a => Fin.ext (by match a with | ⟨0, _⟩ => rfl | ⟨1, _⟩ => rfl)
theorem lidx21 (r : Fin 1000000) (c : Fin 32) (k : Fin 15) : lidx_main_v21 (ix2 r c) k = ix2 r k :=
  funext fun a => Fin.ext (by match a with | ⟨0, _⟩ => rfl | ⟨1, _⟩ => rfl)
theorem ridx21 (r : Fin 1000000) (c : Fin 32) (k : Fin 15) : ridx_main_v21 (ix2 r c) k = ix2 k c :=
  funext fun a => Fin.ext (by match a with | ⟨0, _⟩ => rfl | ⟨1, _⟩ => rfl)
theorem bidx18 (r : Fin 1000000) (k : Fin 15) : idx_main_v17 (idx_main_v18 (ix2 r k)) = ix1 k :=
  funext fun a => Fin.ext (by match a with | ⟨0, _⟩ => rfl)
theorem bidx23 (r : Fin 1000000) (c : Fin 32) : idx_main_v22 (idx_main_v23 (ix2 r c)) = ix1 c :=
  funext fun a => Fin.ext (by match a with | ⟨0, _⟩ => rfl)

/-- The hidden stage at row `r`, unit `k`. -/
theorem hidden_apply (x0 : (⟨S1, .f32⟩ : BufTy).Contents (Elt Ideal)) (x1 : (⟨S1000000x32, .f32⟩ : BufTy).Contents (Elt Ideal))
    (x2 : (⟨S2x4000000, .i32⟩ : BufTy).Contents (Elt Ideal)) (x3 : (⟨S161x15, .f32⟩ : BufTy).Contents (Elt Ideal))
    (x4 : (⟨S15, .f32⟩ : BufTy).Contents (Elt Ideal)) (r : Fin 1000000) (k : Fin 15) :
    val_main_v20 (F := Ideal) x0 x1 x2 x3 x4 (ix2 r k) = Cert.Mlp.hidden (val_main_v15 (F := Ideal) x0 x1 x2) x3 x4 r k := by
  rw [val_main_v20_apply, val_main_v19_apply, val_main_v16_apply, val_main_v18_apply, val_main_v17_apply, bidx18]
  simp only [lidx16, ridx16]
  rfl

/-- The reference's result stage is the perceptron of its features stage. -/
theorem result_eq (x0 : (⟨S1, .f32⟩ : BufTy).Contents (Elt Ideal)) (x1 : (⟨S1000000x32, .f32⟩ : BufTy).Contents (Elt Ideal))
    (x2 : (⟨S2x4000000, .i32⟩ : BufTy).Contents (Elt Ideal)) (x3 : (⟨S161x15, .f32⟩ : BufTy).Contents (Elt Ideal))
    (x4 : (⟨S15, .f32⟩ : BufTy).Contents (Elt Ideal)) (x5 : (⟨S15x32, .f32⟩ : BufTy).Contents (Elt Ideal))
    (x6 : (⟨S32, .f32⟩ : BufTy).Contents (Elt Ideal)) :
    val_main_v24 (F := Ideal) x0 x1 x2 x3 x4 x5 x6 = mlp (val_main_v15 (F := Ideal) x0 x1 x2) x3 x4 x5 x6 := by
  funext i
  obtain ⟨r, c, rfl⟩ : ∃ (r : Fin 1000000) (c : Fin 32), i = ix2 r c := ⟨i 0, i 1, eq_ix2 i⟩
  rw [mlp_apply, val_main_v24_apply, val_main_v21_apply, val_main_v23_apply, val_main_v22_apply, bidx23]
  simp only [lidx21, ridx21, hidden_apply]
  rfl

end Cert.ReferenceIdeal.RefMlp

end
-- ==== Proof.lean ====
/-
  The kernel and the reference compute the same two-layer perceptron of the same features.

  Both programs first build, with the same host operations, one row of 161 features per node (the time, the node's
  own 32 features and those of its four neighbours in ascending order of id), and then apply
      out = tanh (features · W1 + b1) · W2 + b2.
  The kernel does the second part in 125 blocks of 8000 rows, each block from the same rows of the features, with
  its matrix products taken in a narrower float format into a zero accumulator; the reference does it on the whole
  array at once. On the extended reals a change of float format is the identity and both products are the same sums
  over the contracted axis, so both result arrays are `Cert.Mlp.mlp` of the same features, weights and biases:
  `Cert.KernelIdeal.Whole.run` for the kernel, `Cert.ReferenceIdeal.RefMlp.result_eq` over the reference's run for
  the reference. No step uses that an input is finite. The idealization rewrote no operation, so nothing is owed for
  it; the three frames are the generated ones.
-/
import proofs.«145958_j22471268892730_2_alg».proof.Defs
import proofs.«145958_j22471268892730_2_alg».proof.Proof.Gen.Kernel
import proofs.«145958_j22471268892730_2_alg».proof.Proof.Gen.Kernel.Skeleton
import proofs.«145958_j22471268892730_2_alg».proof.Proof.Gen.Kernel.Launch
import proofs.«145958_j22471268892730_2_alg».proof.Proof.Gen.Kernel.Points
import proofs.«145958_j22471268892730_2_alg».proof.Proof.Gen.Kernel.Frame
import proofs.«145958_j22471268892730_2_alg».proof.Proof.Gen.KernelIdeal
import proofs.«145958_j22471268892730_2_alg».proof.Proof.Gen.KernelIdeal.Skeleton
import proofs.«145958_j22471268892730_2_alg».proof.Proof.Gen.KernelIdeal.Launch
import proofs.«145958_j22471268892730_2_alg».proof.Proof.Gen.KernelIdeal.Points
import proofs.«145958_j22471268892730_2_alg».proof.Proof.Gen.KernelIdeal.Frame
import proofs.«145958_j22471268892730_2_alg».proof.Proof.Gen.ReferenceIdeal
import proofs.«145958_j22471268892730_2_alg».proof.Proof.Gen.Pre_finite_inputs
import proofs.«145958_j22471268892730_2_alg».proof.Proof.Gen.KernelIdeal.Value
import proofs.«145958_j22471268892730_2_alg».proof.Proof.Gen.ReferenceIdeal.Run
import proofs.«145958_j22471268892730_2_alg».proof.Proof.Gen.ReferenceIdeal.Read
import proofs.«145958_j22471268892730_2_alg».proof.Proof.KernelWhole
import proofs.«145958_j22471268892730_2_alg».proof.Proof.RefMlp
import Idealize.ShloMosaic.Adequacy
import Idealize.ShloMosaic.Init

noncomputable section

namespace Cert.Proof

open Idealize.ShloMosaic Idealize.SL.Sem Cert.Kernel

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result forgotten. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- From memories that agree on the arguments, the kernel's result array ends at the perceptron of the features
    stage of its arguments and the reference's at the perceptron of the features stage of its own: the same array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefMlp.result_eq,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
